-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096x64 : Shape := ⟨4, ![8, 16, 4096, 64]⟩
abbrev S_ : Shape := ⟨0, ![]⟩

class Facts : Prop where
  bcast_S_S8x16x4096x64 : S_.BroadcastsInDim S8x16x4096x64 (![] : Fin 0 → Fin S8x16x4096x64.rank)
  reducesTo_S8x16x4096x64_S_d0_1_2_3 : S8x16x4096x64.ReducesTo [0, 1, 2, 3] S_
  h_S_ : 0 < S_.numel

variable [Facts]

def fn {F : FTy → Type} [FloatOps F] (main_arg0 : FVec F S8x16x4096x64 .f32) (main_arg1 : FVec F S8x16x4096x64 .f32) (main_arg2 : FVec F S8x16x4096x64 .f32) : IVec S_ 1 :=
  let main_v0 : FVec F S8x16x4096x64 .f32 := Host.absf main_arg0
  let main_cst : FVec F S_ .f32 := constant S_ .f32 0x7F800000#32
  let main_v1 : FVec F S8x16x4096x64 .f32 := broadcastInDim S8x16x4096x64 ![] bcast_S_S8x16x4096x64 main_cst
  let main_v2 : IVec S8x16x4096x64 1 := cmpf .olt main_v0 main_v1
  let main_c : IVec S_ 1 := constantI S_ 1 1#1
  let main_v3 : IVec S_ 1 := (fun x v => Host.reduce IntOp.andi x v reducesTo_S8x16x4096x64_S_d0_1_2_3 h_S_) main_v2 main_c
  let main_v4 : FVec F S8x16x4096x64 .f32 := Host.absf main_arg1
  let main_cst_0 : FVec F S_ .f32 := constant S_ .f32 0x7F800000#32
  let main_v5 : FVec F S8x16x4096x64 .f32 := broadcastInDim S8x16x4096x64 ![] bcast_S_S8x16x4096x64 main_cst_0
  let main_v6 : IVec S8x16x4096x64 1 := cmpf .olt main_v4 main_v5
  let main_c_1 : IVec S_ 1 := constantI S_ 1 1#1
  let main_v7 : IVec S_ 1 := (fun x v => Host.reduce IntOp.andi x v reducesTo_S8x16x4096x64_S_d0_1_2_3 h_S_) main_v6 main_c_1
  let main_v8 : IVec S_ 1 := andi main_v3 main_v7
  let main_v9 : FVec F S8x16x4096x64 .f32 := Host.absf main_arg2
  let main_cst_2 : FVec F S_ .f32 := constant S_ .f32 0x7F800000#32
  let main_v10 : FVec F S8x16x4096x64 .f32 := broadcastInDim S8x16x4096x64 ![] bcast_S_S8x16x4096x64 main_cst_2
  let main_v11 : IVec S8x16x4096x64 1 := cmpf .olt main_v9 main_v10
  let main_c_3 : IVec S_ 1 := constantI S_ 1 1#1
  let main_v12 : IVec S_ 1 := (fun x v => Host.reduce IntOp.andi x v reducesTo_S8x16x4096x64_S_d0_1_2_3 h_S_) main_v11 main_c_3
  let main_v13 : IVec S_ 1 := andi main_v8 main_v12
  main_v13
-- ==== Kernel.lean ====
abbrev S8x16x4096x64 : Shape := ⟨4, ![8, 16, 4096, 64]⟩
abbrev S128x4096x64 : Shape := ⟨3, ![128, 4096, 64]⟩
abbrev S1x4096x64 : Shape := ⟨3, ![1, 4096, 64]⟩
abbrev S4096x64 : Shape := ⟨2, ![4096, 64]⟩
abbrev S64 : Shape := ⟨1, ![64]⟩
abbrev S1x64 : Shape := ⟨2, ![1, 64]⟩
abbrev S4096 : Shape := ⟨1, ![4096]⟩
abbrev S4096x1 : Shape := ⟨2, ![4096, 1]⟩
abbrev S64x64 : Shape := ⟨2, ![64, 64]⟩
abbrev S64x1 : Shape := ⟨2, ![64, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x16x4096x64, .f32⟩
  | .hbm, ⟨1, _⟩ => ⟨S8x16x4096x64, .f32⟩
  | .hbm, ⟨2, _⟩ => ⟨S8x16x4096x64, .f32⟩
  | .hbm, ⟨3, _⟩ => ⟨S128x4096x64, .f32⟩
  | .hbm, ⟨4, _⟩ => ⟨S128x4096x64, .f32⟩
  | .hbm, ⟨5, _⟩ => ⟨S128x4096x64, .f32⟩
  | .hbm, ⟨6, _⟩ => ⟨S128x4096x64, .f32⟩
  | .hbm, ⟨7, _⟩ => ⟨S8x16x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x64, .f32⟩
  | _, _ => ⟨S8x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x16x4096x64_S128x4096x64 : S8x16x4096x64.ShapeCasts S128x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S4096x64_S64 : S4096x64.Reduces [0] S64
  shapeCasts_S64_S1x64 : S64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  bitsLt_bf16_f32 : FTy.bits .bf16 < FTy.bits .f32
  shapeCasts_S64_S64x1 : S64.ShapeCasts S64x1
  broadcasts_S64x1_S64x64 : S64x1.Broadcasts S64x64
  shapeCasts_S4096x64_S1x4096x64 : S4096x64.ShapeCasts S1x4096x64
  shapeCasts_S128x4096x64_S8x16x4096x64 : S128x4096x64.ShapeCasts S8x16x4096x64
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S128x4096x64.size a
  hwx0_0 : ∀ i : grid0.Coords, EltTy.bits .f32 = 32 ∨ (Rect.block (s := S128x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S128x4096x64.size a
  hwx0_1 : ∀ i : grid0.Coords, EltTy.bits .f32 = 32 ∨ (Rect.block (s := S128x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S128x4096x64.size a
  hwx0_2 : ∀ i : grid0.Coords, EltTy.bits .f32 = 32 ∨ (Rect.block (s := S128x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S128x4096x64.size a
  hwx0_3 : ∀ i : grid0.Coords, EltTy.bits .f32 = 32 ∨ (Rect.block (s := S128x4096x64) S1x4096x64.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x4096x64 : Shape := ⟨4, ![8, 16, 4096, 64]⟩
abbrev S_ : Shape := ⟨0, ![]⟩
abbrev S8x16x64 : Shape := ⟨3, ![8, 16, 64]⟩
abbrev S8x16x1x64 : Shape := ⟨4, ![8, 16, 1, 64]⟩
abbrev S8x16x4096 : Shape := ⟨3, ![8, 16, 4096]⟩
abbrev S8x16x4096x1 : Shape := ⟨4, ![8, 16, 4096, 1]⟩
abbrev S8x16x64x64 : Shape := ⟨4, ![8, 16, 64, 64]⟩
abbrev S8x16x64x1 : Shape := ⟨4, ![8, 16, 64, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x16x4096x64, .f32⟩
  | .hbm, ⟨1, _⟩ => ⟨S8x16x4096x64, .f32⟩
  | .hbm, ⟨2, _⟩ => ⟨S8x16x4096x64, .f32⟩
  | .hbm, ⟨3, _⟩ => ⟨S_, .f32⟩
  | .hbm, ⟨4, _⟩ => ⟨S8x16x64, .f32⟩
  | .hbm, ⟨5, _⟩ => ⟨S_, .f32⟩
  | .hbm, ⟨6, _⟩ => ⟨S8x16x64, .f32⟩
  | .hbm, ⟨7, _⟩ => ⟨S8x16x64, .f32⟩
  | .hbm, ⟨8, _⟩ => ⟨S8x16x1x64, .f32⟩
  | .hbm, ⟨9, _⟩ => ⟨S8x16x4096x64, .f32⟩
  | .hbm, ⟨10, _⟩ => ⟨S8x16x4096x64, .f32⟩
  | .hbm, ⟨11, _⟩ => ⟨S8x16x4096x64, .f32⟩
  | .hbm, ⟨12, _⟩ => ⟨S_, .f32⟩
  | .hbm, ⟨13, _⟩ => ⟨S8x16x64, .f32⟩
  | .hbm, ⟨14, _⟩ => ⟨S8x16x1x64, .f32⟩
  | .hbm, ⟨15, _⟩ => ⟨S8x16x4096x64, .f32⟩
  | .hbm, ⟨16, _⟩ => ⟨S8x16x4096x64, .f32⟩
  | .hbm, ⟨17, _⟩ => ⟨S_, .f32⟩
  | .hbm, ⟨18, _⟩ => ⟨S8x16x4096, .f32⟩
  | .hbm, ⟨19, _⟩ => ⟨S_, .f32⟩
  | .hbm, ⟨20, _⟩ => ⟨S8x16x4096, .f32⟩
  | .hbm, ⟨21, _⟩ => ⟨S8x16x4096, .f32⟩
  | .hbm, ⟨22, _⟩ => ⟨S8x16x4096x1, .f32⟩
  | .hbm, ⟨23, _⟩ => ⟨S8x16x4096x64, .f32⟩
  | .hbm, ⟨24, _⟩ => ⟨S8x16x4096x64, .f32⟩
  | .hbm, ⟨25, _⟩ => ⟨S8x16x4096x64, .f32⟩
  | .hbm, ⟨26, _⟩ => ⟨S_, .f32⟩
  | .hbm, ⟨27, _⟩ => ⟨S8x16x4096, .f32⟩
  | .hbm, ⟨28, _⟩ => ⟨S8x16x4096x1, .f32⟩
  | .hbm, ⟨29, _⟩ => ⟨S8x16x4096x64, .f32⟩
  | .hbm, ⟨30, _⟩ => ⟨S8x16x4096x64, .f32⟩
  | .hbm, ⟨31, _⟩ => ⟨S8x16x64x64, .f32⟩
  | .hbm, ⟨32, _⟩ => ⟨S_, .f32⟩
  | .hbm, ⟨33, _⟩ => ⟨S8x16x64, .f32⟩
  | .hbm, ⟨34, _⟩ => ⟨S8x16x64x1, .f32⟩
  | .hbm, ⟨35, _⟩ => ⟨S_, .f32⟩
  | .hbm, ⟨36, _⟩ => ⟨S8x16x64x1, .f32⟩
  | .hbm, ⟨37, _⟩ => ⟨S8x16x64x1, .f32⟩
  | .hbm, ⟨38, _⟩ => ⟨S8x16x64x64, .f32⟩
  | .hbm, ⟨39, _⟩ => ⟨S8x16x64x64, .f32⟩
  | .hbm, ⟨40, _⟩ => ⟨S8x16x4096x64, .f32⟩
  | _, _ => ⟨S8x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S8x16x4096x64_S8x16x64_d2 : S8x16x4096x64.ReducesTo [2] S8x16x64
  h_S_ : 0 < S_.numel
  bcast_S_S8x16x64 : S_.BroadcastsInDim S8x16x64 (![] : Fin 0 → Fin S8x16x64.rank)
  bcast_S8x16x64_S8x16x1x64_0_1_3 : S8x16x64.BroadcastsInDim S8x16x1x64 (![0, 1, 3] : Fin 3 → Fin S8x16x1x64.rank)
  bcast_S8x16x1x64_S8x16x4096x64_0_1_2_3 : S8x16x1x64.BroadcastsInDim S8x16x4096x64 (![0, 1, 2, 3] : Fin 4 → Fin S8x16x4096x64.rank)
  reducesTo_S8x16x4096x64_S8x16x4096_d3 : S8x16x4096x64.ReducesTo [3] S8x16x4096
  bcast_S_S8x16x4096 : S_.BroadcastsInDim S8x16x4096 (![] : Fin 0 → Fin S8x16x4096.rank)
  bcast_S8x16x4096_S8x16x4096x1_0_1_2 : S8x16x4096.BroadcastsInDim S8x16x4096x1 (![0, 1, 2] : Fin 3 → Fin S8x16x4096x1.rank)
  bcast_S8x16x4096x1_S8x16x4096x64_0_1_2_3 : S8x16x4096x1.BroadcastsInDim S8x16x4096x64 (![0, 1, 2, 3] : Fin 4 → Fin S8x16x4096x64.rank)
  bcast_S8x16x64_S8x16x64x1_0_1_2 : S8x16x64.BroadcastsInDim S8x16x64x1 (![0, 1, 2] : Fin 3 → Fin S8x16x64x1.rank)
  bcast_S_S8x16x64x1 : S_.BroadcastsInDim S8x16x64x1 (![] : Fin 0 → Fin S8x16x64x1.rank)
  bcast_S8x16x64x1_S8x16x64x64_0_1_2_3 : S8x16x64x1.BroadcastsInDim S8x16x64x64 (![0, 1, 2, 3] : Fin 4 → Fin S8x16x64x64.rank)
  dot_S8x16x4096x64_S8x16x4096x64_S8x16x64x64_2_2_3_3_01_01_wf : DotDims.WF S8x16x4096x64 S8x16x4096x64 S8x16x64x64 [2] [2] [3] [3] [0, 1] [0, 1]
  dot_S8x16x4096x64_S8x16x64x64_S8x16x4096x64_3_2_2_3_01_01_wf : DotDims.WF S8x16x4096x64 S8x16x64x64 S8x16x4096x64 [3] [2] [2] [3] [0, 1] [0, 1]

variable [Facts₀]

def dot_S8x16x4096x64_S8x16x4096x64_S8x16x64x64_2_2_3_3_01_01 : DotDims S8x16x4096x64 S8x16x4096x64 S8x16x64x64 where
  lhsContracting := [2]
  rhsContracting := [2]
  lhsNonContracting := [3]
  rhsNonContracting := [3]
  lhsBatch := [0, 1]
  rhsBatch := [0, 1]
  wf := dot_S8x16x4096x64_S8x16x4096x64_S8x16x64x64_2_2_3_3_01_01_wf
def dot_S8x16x4096x64_S8x16x64x64_S8x16x4096x64_3_2_2_3_01_01 : DotDims S8x16x4096x64 S8x16x64x64 S8x16x4096x64 where
  lhsContracting := [3]
  rhsContracting := [2]
  lhsNonContracting := [2]
  rhsNonContracting := [3]
  lhsBatch := [0, 1]
  rhsBatch := [0, 1]
  wf := dot_S8x16x4096x64_S8x16x64x64_S8x16x4096x64_3_2_2_3_01_01_wf

class Facts : Prop extends Facts₀ where

variable [Facts]
-- ==== Proof.Attention.lean ====
/-
  Linear attention of one head, as a function on the extended reals.

  A head is a table of 4096 positions by 64 features. The keys are normalised down each feature's column
  (a softmax over the positions), the queries along each position's row (a softmax over the features).
  A softmax subtracts the maximum, exponentiates, and divides by the sum of the exponentials; the maximum is
  taken together with the value the pattern of minus infinity denotes, from which both programs start it.
  The context is the 64 by 64 table  sum over positions n of  keyWeight n d * value n e,  each row d divided by
  (the column sum of the key weights + eps),  and the result at (n, e) is  sum over d of  qryWeight n d * context d e.

  Nothing here is simplified: the column sums of the key weights are left as sums, so both programs meet this
  text by reading their own operations, with no law of the extended reals beyond reordering a finite sum or maximum.
-/
import Idealize.ShloMosaic.PureOps.Ideal
import Idealize.ShloMosaic.Lib.ValueIdx

noncomputable section

namespace Cert.Attention

open Idealize.ShloMosaic Idealize.ShloMosaic.ValueIdx

/-- One head's queries, keys or values: 4096 positions by 64 features. -/
abbrev Head := Fin 4096 → Fin 64 → EReal

/-- What the f32 pattern of minus infinity denotes. -/
abbrev negInf : EReal := Ideal.ofBits .f32 0xFF800000#32
/-- What the f32 pattern nearest 1e-6 denotes (the same word in both programs, so never evaluated). -/
abbrev eps : EReal := Ideal.ofBits .f32 0x358637BD#32

/-- The largest key of feature `d` over the positions. -/
def keyMax (K : Head) (d : Fin 64) : EReal :=
  max negInf ((Finset.univ : Finset (Fin 4096)).fold max negInf fun n => K n d)
/-- The exponential of a key less its column's maximum. -/
def keyExp (K : Head) (n : Fin 4096) (d : Fin 64) : EReal := Ideal.exp (K n d - keyMax K d)
/-- The softmax of the keys over the positions. -/
def keyWeight (K : Head) (n : Fin 4096) (d : Fin 64) : EReal := Ideal.div (keyExp K n d) (∑ n', keyExp K n' d)

/-- The largest query of position `n` over the features. -/
def qryMax (Q : Head) (n : Fin 4096) : EReal :=
  max negInf ((Finset.univ : Finset (Fin 64)).fold max negInf fun d => Q n d)
/-- The exponential of a query less its row's maximum. -/
def qryExp (Q : Head) (n : Fin 4096) (d : Fin 64) : EReal := Ideal.exp (Q n d - qryMax Q n)
/-- The softmax of the queries over the features. -/
def qryWeight (Q : Head) (n : Fin 4096) (d : Fin 64) : EReal := Ideal.div (qryExp Q n d) (∑ d', qryExp Q n d')

/-- The column sum of the key weights of feature `d`, plus eps: what row `d` of the context is divided by. -/
def keyMass (K : Head) (d : Fin 64) : EReal := (∑ n, keyWeight K n d) + eps
/-- The keys' weights contracted with the values over the positions. -/
def rawContext (K V : Head) (d e : Fin 64) : EReal := ∑ n, keyWeight K n d * V n e
/-- The normalised context. -/
def context (K V : Head) (d e : Fin 64) : EReal := Ideal.div (rawContext K V d e) (keyMass K d)
/-- The head's result: the query weights contracted with the context over the features. -/
def attend (Q K V : Head) (n : Fin 4096) (e : Fin 64) : EReal := ∑ d, qryWeight Q n d * context K V d e

/-- The arrays: 8 batches of 16 heads, and the same 128 heads in one axis. -/
abbrev A4 : Shape := ⟨4, ![8, 16, 4096, 64]⟩
abbrev A3 : Shape := ⟨3, ![128, 4096, 64]⟩

/-- Head `(b, h)` of a four-axis array, and head `g` of a three-axis one. -/
def head4 (x : A4.Idx → EReal) (b : Fin 8) (h : Fin 16) : Head := fun n d => x (ix4 b h n d)
def head3 (x : A3.Idx → EReal) (g : Fin 128) : Head := fun n d => x (ix3 g n d)

/-- Every head attended, over the four-axis arrays and over the three-axis ones. -/
def attend4 (q k v : A4.Idx → EReal) : A4.Idx → EReal := fun i =>
  attend (head4 q (i 0) (i 1)) (head4 k (i 0) (i 1)) (head4 v (i 0) (i 1)) (i 2) (i 3)
def attend3 (q k v : A3.Idx → EReal) : A3.Idx → EReal := fun i =>
  attend (head3 q (i 0)) (head3 k (i 0)) (head3 v (i 0)) (i 1) (i 2)

end Cert.Attention

end
-- ==== Proof.RefStages.lean ====
/-
  The reference program's stages, read at an index, are the stages of `Cert.Attention`.

  The reference computes on the four-axis arrays directly: a maximum and a sum over axis 2 for the keys
  (one per batch, head and feature), over axis 3 for the queries (one per batch, head and position), broadcasts back,
  two batched contractions. Read at the index (b, h, ·, ·) each stage only sees head (b, h) of its arguments,
  so it is the matching stage of one head's attention. The maxima are folds of `max` over the reduced axis in
  any order; the sums start from the zero pattern, which denotes 0.
-/
import proofs.«105340_j46703474377050_1_alg».proof.Proof.Gen.ReferenceIdeal.Read
import proofs.«105340_j46703474377050_1_alg».proof.Proof.Attention
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.Attention
open Idealize.ShloMosaic Idealize.ShloMosaic.ValueIdx

/-- An argument array of the reference. -/
abbrev Arr := (⟨S8x16x4096x64, .f32⟩ : BufTy).Contents (Elt Ideal)

theorem red_d2 : S8x16x4096x64.Reduces [2] S8x16x64 := by decide
theorem red_d3 : S8x16x4096x64.Reduces [3] S8x16x4096 := by decide

/-! ## The two maxima, as folds over the reduced axis -/

/-- The host's maximum over axis 2 at (b, h, d): the fold of `max` over the positions of head (b, h)'s column d. -/
theorem hostMax_positions (x : Arr) (init : (⟨S_, .f32⟩ : BufTy).Contents (Elt Ideal)) (b : Fin 8) (h : Fin 16) (d : Fin 64) :
    Host.reduce (FloatOps.maximumf (F := Ideal) (φ := .f32)) x init reducesTo_S8x16x4096x64_S8x16x64_d2 h_S_ (ix3 b h d)
      = (Finset.univ : Finset (Fin 4096)).fold max (init (Shape.Idx.first h_S_)) (fun n => x (ix4 b h n d)) := by
  have hf := Host.reduce_eq_fold_single (α := Ideal .f32) (s := S8x16x4096x64) (t := S8x16x64) (a := 2)
    (FloatOps.maximumf (F := Ideal) (φ := .f32)) x init reducesTo_S8x16x4096x64_S8x16x64_d2 red_d2 h_S_ (ix3 b h d)
  refine hf.trans ?_
  have e : (x ∘ red_d2.lift (ix3 b h d)) = fun n : Fin 4096 => x (ix4 b h n d) :=
    funext fun n => congrArg x (funext fun a => Fin.ext (by
      match a with | ⟨0, _⟩ => rfl | ⟨1, _⟩ => rfl | ⟨2, _⟩ => rfl | ⟨3, _⟩ => rfl))
  rw [e]
  rfl

/-- The host's maximum over axis 3 at (b, h, n): the fold of `max` over the features of head (b, h)'s row n. -/
theorem hostMax_features (x : Arr) (init : (⟨S_, .f32⟩ : BufTy).Contents (Elt Ideal)) (b : Fin 8) (h : Fin 16) (n : Fin 4096) :
    Host.reduce (FloatOps.maximumf (F := Ideal) (φ := .f32)) x init reducesTo_S8x16x4096x64_S8x16x4096_d3 h_S_ (ix3 b h n)
      = (Finset.univ : Finset (Fin 64)).fold max (init (Shape.Idx.first h_S_)) (fun d => x (ix4 b h n d)) := by
  have hf := Host.reduce_eq_fold_single (α := Ideal .f32) (s := S8x16x4096x64) (t := S8x16x4096) (a := 3)
    (FloatOps.maximumf (F := Ideal) (φ := .f32)) x init reducesTo_S8x16x4096x64_S8x16x4096_d3 red_d3 h_S_ (ix3 b h n)
  refine hf.trans ?_
  have e : (x ∘ red_d3.lift (ix3 b h n)) = fun d : Fin 64 => x (ix4 b h n d) :=
    funext fun d => congrArg x (funext fun a => Fin.ext (by
      match a with | ⟨0, _⟩ => rfl | ⟨1, _⟩ => rfl | ⟨2, _⟩ => rfl | ⟨3, _⟩ => rfl))
  rw [e]
  rfl

/-! ## The keys: a softmax down axis 2 -/

/-- The maximum over the positions, taken with the initial value once more. -/
theorem keyMax_ref (x1 : Arr) (b : Fin 8) (h : Fin 16) (d : Fin 64) :
    val_main_v2 (F := Ideal) x1 (ix3 b h d) = keyMax (head4 x1 b h) d := by
  rw [val_main_v2_apply, val_main_v1_apply, val_main_cst_0_apply]
  unfold val_main_v0 keyMax head4
  exact congrArg (max negInf) (hostMax_positions x1 _ b h d)

/-- The exponential of a key less its column's maximum. -/
theorem keyExp_ref (x1 : Arr) (b : Fin 8) (h : Fin 16) (n : Fin 4096) (d : Fin 64) :
    val_main_v6 (F := Ideal) x1 (ix4 b h n d) = keyExp (head4 x1 b h) n d := by
  rw [val_main_v6_apply, val_main_v5_apply, val_main_v4_apply, val_main_v3_apply]
  have e : idx_main_v3 (idx_main_v4 (ix4 b h n d)) = ix3 b h d :=
    funext fun a => Fin.ext (by match a with | ⟨0, _⟩ => rfl | ⟨1, _⟩ => rfl | ⟨2, _⟩ => rfl)
  rw [e, keyMax_ref]
  rfl

/-- The sum of those exponentials down the column; the sum starts from the zero pattern. -/
theorem keySum_ref (x1 : Arr) (b : Fin 8) (h : Fin 16) (d : Fin 64) :
    val_main_v7 (F := Ideal) x1 (ix3 b h d) = ∑ n, keyExp (head4 x1 b h) n d := by
  rw [val_main_v7_apply, val_main_cst_1_apply, Ideal.ofBits_def, Ideal.ofBits_zero_f32, zero_add]
  refine Finset.sum_congr rfl fun n _ => ?_
  have e : idx_main_v7 (ix3 b h d) n = ix4 b h n d :=
    funext fun a => Fin.ext (by match a with | ⟨0, _⟩ => rfl | ⟨1, _⟩ => rfl | ⟨2, _⟩ => rfl | ⟨3, _⟩ => rfl)
  rw [e, keyExp_ref]

/-- The keys' softmax weight. -/
theorem keyWeight_ref (x1 : Arr) (b : Fin 8) (h : Fin 16) (n : Fin 4096) (d : Fin 64) :
    val_main_v10 (F := Ideal) x1 (ix4 b h n d) = keyWeight (head4 x1 b h) n d := by
  rw [val_main_v10_apply, val_main_v9_apply, val_main_v8_apply]
  have e : idx_main_v8 (idx_main_v9 (ix4 b h n d)) = ix3 b h d :=
    funext fun a => Fin.ext (by match a with | ⟨0, _⟩ => rfl | ⟨1, _⟩ => rfl | ⟨2, _⟩ => rfl)
  rw [e, keySum_ref, keyExp_ref]
  rfl

/-! ## The queries: a softmax along axis 3 -/

theorem qryMax_ref (x0 : Arr) (b : Fin 8) (h : Fin 16) (n : Fin 4096) :
    val_main_v13 (F := Ideal) x0 (ix3 b h n) = qryMax (head4 x0 b h) n := by
  rw [val_main_v13_apply, val_main_v12_apply, val_main_cst_3_apply]
  unfold val_main_v11 qryMax head4
  exact congrArg (max negInf) (hostMax_features x0 _ b h n)

theorem qryExp_ref (x0 : Arr) (b : Fin 8) (h : Fin 16) (n : Fin 4096) (d : Fin 64) :
    val_main_v17 (F := Ideal) x0 (ix4 b h n d) = qryExp (head4 x0 b h) n d := by
  rw [val_main_v17_apply, val_main_v16_apply, val_main_v15_apply, val_main_v14_apply]
  have e : idx_main_v14 (idx_main_v15 (ix4 b h n d)) = ix3 b h n :=
    funext fun a => Fin.ext (by match a with | ⟨0, _⟩ => rfl | ⟨1, _⟩ => rfl | ⟨2, _⟩ => rfl)
  rw [e, qryMax_ref]
  rfl

theorem qrySum_ref (x0 : Arr) (b : Fin 8) (h : Fin 16) (n : Fin 4096) :
    val_main_v18 (F := Ideal) x0 (ix3 b h n) = ∑ d, qryExp (head4 x0 b h) n d := by
  rw [val_main_v18_apply, val_main_cst_4_apply, Ideal.ofBits_def, Ideal.ofBits_zero_f32, zero_add]
  refine Finset.sum_congr rfl fun d _ => ?_
  have e : idx_main_v18 (ix3 b h n) d = ix4 b h n d :=
    funext fun a => Fin.ext (by match a with | ⟨0, _⟩ => rfl | ⟨1, _⟩ => rfl | ⟨2, _⟩ => rfl | ⟨3, _⟩ => rfl)
  rw [e, qryExp_ref]

theorem qryWeight_ref (x0 : Arr) (b : Fin 8) (h : Fin 16) (n : Fin 4096) (d : Fin 64) :
    val_main_v21 (F := Ideal) x0 (ix4 b h n d) = qryWeight (head4 x0 b h) n d := by
  rw [val_main_v21_apply, val_main_v20_apply, val_main_v19_apply]
  have e : idx_main_v19 (idx_main_v20 (ix4 b h n d)) = ix3 b h n :=
    funext fun a => Fin.ext (by match a with | ⟨0, _⟩ => rfl | ⟨1, _⟩ => rfl | ⟨2, _⟩ => rfl)
  rw [e, qrySum_ref, qryExp_ref]
  rfl

/-! ## The context and the result -/

/-- The batched contraction of the key weights with the values over the positions. -/
theorem rawContext_ref (x1 x2 : Arr) (b : Fin 8) (h : Fin 16) (d e : Fin 64) :
    val_main_v22 (F := Ideal) x1 x2 (ix4 b h d e) = rawContext (head4 x1 b h) (head4 x2 b h) d e := by
  rw [val_main_v22_apply]
  refine Finset.sum_congr rfl fun n _ => ?_
  have el : lidx_main_v22 (ix4 b h d e) n = ix4 b h n d :=
    funext fun a => Fin.ext (by match a with | ⟨0, _⟩ => rfl | ⟨1, _⟩ => rfl | ⟨2, _⟩ => rfl | ⟨3, _⟩ => rfl)
  have er : ridx_main_v22 (ix4 b h d e) n = ix4 b h n e :=
    funext fun a => Fin.ext (by match a with | ⟨0, _⟩ => rfl | ⟨1, _⟩ => rfl | ⟨2, _⟩ => rfl | ⟨3, _⟩ => rfl)
  rw [el, er, keyWeight_ref]
  rfl

/-- The column sum of the key weights plus eps, kept on a unit last axis. -/
theorem keyMass_ref (x1 : Arr) (b : Fin 8) (h : Fin 16) (d : Fin 64) :
    val_main_v26 (F := Ideal) x1 (ix4 b h d (0 : Fin 1)) = keyMass (head4 x1 b h) d := by
  rw [val_main_v26_apply, val_main_v24_apply, val_main_v25_apply, val_main_cst_6_apply, val_main_v23_apply,
    val_main_cst_5_apply, Ideal.ofBits_def, Ideal.ofBits_def, Ideal.ofBits_zero_f32, zero_add]
  unfold keyMass
  refine congrArg (· + eps) (Finset.sum_congr rfl fun n _ => ?_)
  have e : idx_main_v23 (idx_main_v24 (ix4 b h d (0 : Fin 1))) n = ix4 b h n d :=
    funext fun a => Fin.ext (by match a with | ⟨0, _⟩ => rfl | ⟨1, _⟩ => rfl | ⟨2, _⟩ => rfl | ⟨3, _⟩ => rfl)
  rw [e, keyWeight_ref]

/-- The normalised context. -/
theorem context_ref (x1 x2 : Arr) (b : Fin 8) (h : Fin 16) (d e : Fin 64) :
    val_main_v28 (F := Ideal) x1 x2 (ix4 b h d e) = context (head4 x1 b h) (head4 x2 b h) d e := by
  rw [val_main_v28_apply, val_main_v27_apply]
  have e' : idx_main_v27 (ix4 b h d e) = ix4 b h d (0 : Fin 1) :=
    funext fun a => Fin.ext (by match a with | ⟨0, _⟩ => rfl | ⟨1, _⟩ => rfl | ⟨2, _⟩ => rfl | ⟨3, _⟩ => rfl)
  rw [e', keyMass_ref, rawContext_ref]
  rfl

/-- The result at (b, h, n, e). -/
theorem attend_ref (x0 x1 x2 : Arr) (b : Fin 8) (h : Fin 16) (n : Fin 4096) (e : Fin 64) :
    val_main_v29 (F := Ideal) x0 x1 x2 (ix4 b h n e) = attend (head4 x0 b h) (head4 x1 b h) (head4 x2 b h) n e := by
  rw [val_main_v29_apply]
  refine Finset.sum_congr rfl fun d _ => ?_
  have el : lidx_main_v29 (ix4 b h n e) d = ix4 b h n d :=
    funext fun a => Fin.ext (by match a with | ⟨0, _⟩ => rfl | ⟨1, _⟩ => rfl | ⟨2, _⟩ => rfl | ⟨3, _⟩ => rfl)
  have er : ridx_main_v29 (ix4 b h n e) d = ix4 b h d e :=
    funext fun a => Fin.ext (by match a with | ⟨0, _⟩ => rfl | ⟨1, _⟩ => rfl | ⟨2, _⟩ => rfl | ⟨3, _⟩ => rfl)
  rw [el, er, qryWeight_ref, context_ref]

/-- The reference's result, as one function of its three argument arrays, is every head attended. -/
theorem result_eq (x0 x1 x2 : Arr) : val_main_v29 (F := Ideal) x0 x1 x2 = attend4 x0 x1 x2 := by
  funext i
  obtain ⟨b, h, n, e, rfl⟩ : ∃ (b : Fin 8) (h : Fin 16) (n : Fin 4096) (e : Fin 64), i = ix4 b h n e :=
    ⟨i 0, i 1, i 2, i 3, eq_ix4 i⟩
  exact attend_ref x0 x1 x2 b h n e

end Cert.ReferenceIdeal.RefValue

end
-- ==== Proof.BlockOps.lean ====
/-
  The kernel's vector operations on one head's [4096, 64] block, read at an index, at the extended reals.

  A reduction over axis 0 at feature d ranges over the positions n of column d, one over axis 1 at position n over the
  features of row n: a maximum is the fold of `max` from what the accumulator's pattern denotes, a sum the plain sum.
  The first matrix product contracts both operands' axis 0 (the positions), giving a [64, 64] table; the second
  contracts the left operand's axis 1 with the right operand's axis 0 (the features). Into a zero accumulator each is the
  bare sum of products. A change of float format is the identity here, so the bf16 operands are the f32 values.
-/
import proofs.«105340_j46703474377050_1_alg».proof.Proof.Gen.KernelIdeal
import proofs.«105340_j46703474377050_1_alg».proof.Proof.Attention
import Idealize.ShloMosaic.PureOps.Ideal.Laws
import Idealize.ShloMosaic.Lib.ValueIdx

noncomputable section

namespace Cert.KernelIdeal.Block

open Cert.KernelIdeal Cert.Attention
open Idealize.ShloMosaic Idealize.ShloMosaic.ValueIdx

/-! ## Reductions -/

/-- The maximum down column `d`. -/
theorem colMax_apply (x : FVec Ideal S4096x64 .f32) (h : S4096x64.Reduces [0] S64) (hφ : FKind.Formats .f32)
    (hacc : (0xFF800000#32 : BitVec FTy.f32.bits) = FKind.maximumf.neutral .f32 hφ) (d : Fin 64) :
    multiReduction .maximumf [0] S64 x 0xFF800000#32 h hφ hacc (ix1 d)
      = (Finset.univ : Finset (Fin 4096)).fold max negInf (fun n => x (ix2 n d)) := by
  refine (Ideal.multiReduction_maximumf_single x _ h hφ hacc (ix1 d)).trans ?_
  have e : (x ∘ h.lift (ix1 d)) = fun n : Fin 4096 => x (ix2 n d) :=
    funext fun n => congrArg x (funext fun a => Fin.ext (by match a with | ⟨0, _⟩ => rfl | ⟨1, _⟩ => rfl))
  rw [e]
  rfl

/-- The maximum along row `n`. -/
theorem rowMax_apply (x : FVec Ideal S4096x64 .f32) (h : S4096x64.Reduces [1] S4096) (hφ : FKind.Formats .f32)
    (hacc : (0xFF800000#32 : BitVec FTy.f32.bits) = FKind.maximumf.neutral .f32 hφ) (n : Fin 4096) :
    multiReduction .maximumf [1] S4096 x 0xFF800000#32 h hφ hacc (ix1 n)
      = (Finset.univ : Finset (Fin 64)).fold max negInf (fun d => x (ix2 n d)) := by
  refine (Ideal.multiReduction_maximumf_single x _ h hφ hacc (ix1 n)).trans ?_
  have e : (x ∘ h.lift (ix1 n)) = fun d : Fin 64 => x (ix2 n d) :=
    funext fun d => congrArg x (funext fun a => Fin.ext (by match a with | ⟨0, _⟩ => rfl | ⟨1, _⟩ => rfl))
  rw [e]
  rfl

/-- The sum down column `d`. -/
theorem colSum_apply (x : FVec Ideal S4096x64 .f32) (h : S4096x64.Reduces [0] S64) (hφ : FKind.Formats .f32)
    (hacc : (0x00000000#32 : BitVec FTy.f32.bits) = FKind.add.neutral .f32 hφ) (d : Fin 64) :
    multiReduction .add [0] S64 x 0x00000000#32 h hφ hacc (ix1 d) = ∑ n : Fin 4096, x (ix2 n d) :=
  (Ideal.multiReduction_add_single x _ h hφ hacc (ix1 d)).trans
    (Finset.sum_congr rfl fun n _ => congrArg x (funext fun a => Fin.ext (by
      match a with | ⟨0, _⟩ => rfl | ⟨1, _⟩ => rfl)))

/-- The sum along row `n`. -/
theorem rowSum_apply (x : FVec Ideal S4096x64 .f32) (h : S4096x64.Reduces [1] S4096) (hφ : FKind.Formats .f32)
    (hacc : (0x00000000#32 : BitVec FTy.f32.bits) = FKind.add.neutral .f32 hφ) (n : Fin 4096) :
    multiReduction .add [1] S4096 x 0x00000000#32 h hφ hacc (ix1 n) = ∑ d : Fin 64, x (ix2 n d) :=
  (Ideal.multiReduction_add_single x _ h hφ hacc (ix1 n)).trans
    (Finset.sum_congr rfl fun d _ => congrArg x (funext fun a => Fin.ext (by
      match a with | ⟨0, _⟩ => rfl | ⟨1, _⟩ => rfl)))

/-! ## The two matrix products -/

/-! The operand indices of the product that contracts the positions, coordinate by coordinate: at output index (d, e) and
    contraction coordinate n the left operand is read at (n, d), the right at (n, e). -/
theorem positions_lhs_0 (j : S64x64.Idx) (q : dot_S4096x64_S4096x64_S64x64_0_0_1_1_n_n.contr.Idx) :
    (dot_S4096x64_S4096x64_S64x64_0_0_1_1_n_n.lhsIdx j q 0).val = (q ⟨0, by decide⟩).val :=
  dot_S4096x64_S4096x64_S64x64_0_0_1_1_n_n.lhsIdx_val_of_single rfl j q
theorem positions_lhs_1 (j : S64x64.Idx) (q : dot_S4096x64_S4096x64_S64x64_0_0_1_1_n_n.contr.Idx) :
    (dot_S4096x64_S4096x64_S64x64_0_0_1_1_n_n.lhsIdx j q 1).val = (j 0).val := by
  unfold DotDims.lhsIdx
  rw [dif_neg (show ¬(1 : Fin S4096x64.rank) ∈ dot_S4096x64_S4096x64_S64x64_0_0_1_1_n_n.lhsBatch by decide),
    dif_pos (show (1 : Fin S4096x64.rank) ∈ dot_S4096x64_S4096x64_S64x64_0_0_1_1_n_n.lhsNonContracting by decide)]
  rfl
theorem positions_rhs_0 (j : S64x64.Idx) (q : dot_S4096x64_S4096x64_S64x64_0_0_1_1_n_n.contr.Idx) :
    (dot_S4096x64_S4096x64_S64x64_0_0_1_1_n_n.rhsIdx j q 0).val = (q ⟨0, by decide⟩).val :=
  dot_S4096x64_S4096x64_S64x64_0_0_1_1_n_n.rhsIdx_val_of_single rfl j q
theorem positions_rhs_1 (j : S64x64.Idx) (q : dot_S4096x64_S4096x64_S64x64_0_0_1_1_n_n.contr.Idx) :
    (dot_S4096x64_S4096x64_S64x64_0_0_1_1_n_n.rhsIdx j q 1).val = (j 1).val := by
  unfold DotDims.rhsIdx
  rw [dif_neg (show ¬(1 : Fin S4096x64.rank) ∈ dot_S4096x64_S4096x64_S64x64_0_0_1_1_n_n.rhsBatch by decide),
    dif_pos (show (1 : Fin S4096x64.rank) ∈ dot_S4096x64_S4096x64_S64x64_0_0_1_1_n_n.rhsNonContracting by decide)]
  rfl

/-- Contracting the positions: the [64, 64] table at (d, e) sums, over n, the left operand at (n, d) times the right at (n, e). -/
theorem contractPositions_apply {φ₁ φ₂ : FTy} (a : FVec Ideal S4096x64 φ₁) (b : FVec Ideal S4096x64 φ₂) (d e : Fin 64) :
    matmul dot_S4096x64_S4096x64_S64x64_0_0_1_1_n_n none a b (constant S64x64 .f32 0x00000000#32) (ix2 d e)
      = ∑ n : Fin 4096, a (ix2 n d) * b (ix2 n e) := by
  simp only [matmul]
  rw [Ideal.matmul_constant_zero_apply, ← Equiv.sum_comp (contrEquiv1 dot_S4096x64_S4096x64_S64x64_0_0_1_1_n_n 4096 rfl rfl).symm]
  refine Finset.sum_congr rfl fun k _ => ?_
  have hk := contrEquiv1_symm_val dot_S4096x64_S4096x64_S64x64_0_0_1_1_n_n 4096 rfl rfl k
  have el : dot_S4096x64_S4096x64_S64x64_0_0_1_1_n_n.lhsIdx (ix2 d e) ((contrEquiv1 dot_S4096x64_S4096x64_S64x64_0_0_1_1_n_n 4096 rfl rfl).symm k) = ix2 k d :=
    funext fun ax => Fin.ext (by
      match ax with
      | ⟨0, _⟩ => exact (positions_lhs_0 _ _).trans hk
      | ⟨1, _⟩ => exact positions_lhs_1 _ _)
  have er : dot_S4096x64_S4096x64_S64x64_0_0_1_1_n_n.rhsIdx (ix2 d e) ((contrEquiv1 dot_S4096x64_S4096x64_S64x64_0_0_1_1_n_n 4096 rfl rfl).symm k) = ix2 k e :=
    funext fun ax => Fin.ext (by
      match ax with
      | ⟨0, _⟩ => exact (positions_rhs_0 _ _).trans hk
      | ⟨1, _⟩ => exact positions_rhs_1 _ _)
  rw [el, er]

/-! The operand indices of the product that contracts the features: at output index (n, e) and contraction coordinate d
    the left operand is read at (n, d), the right at (d, e). -/
theorem features_lhs_0 (j : S4096x64.Idx) (q : dot_S4096x64_S64x64_S4096x64_1_0_0_1_n_n.contr.Idx) :
    (dot_S4096x64_S64x64_S4096x64_1_0_0_1_n_n.lhsIdx j q 0).val = (j 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
theorem features_lhs_1 (j : S4096x64.Idx) (q : dot_S4096x64_S64x64_S4096x64_1_0_0_1_n_n.contr.Idx) :
    (dot_S4096x64_S64x64_S4096x64_1_0_0_1_n_n.lhsIdx j q 1).val = (q ⟨0, by decide⟩).val :=
  dot_S4096x64_S64x64_S4096x64_1_0_0_1_n_n.lhsIdx_val_of_single rfl j q
theorem features_rhs_0 (j : S4096x64.Idx) (q : dot_S4096x64_S64x64_S4096x64_1_0_0_1_n_n.contr.Idx) :
    (dot_S4096x64_S64x64_S4096x64_1_0_0_1_n_n.rhsIdx j q 0).val = (q ⟨0, by decide⟩).val :=
  dot_S4096x64_S64x64_S4096x64_1_0_0_1_n_n.rhsIdx_val_of_single rfl j q
theorem features_rhs_1 (j : S4096x64.Idx) (q : dot_S4096x64_S64x64_S4096x64_1_0_0_1_n_n.contr.Idx) :
    (dot_S4096x64_S64x64_S4096x64_1_0_0_1_n_n.rhsIdx j q 1).val = (j 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- Contracting the features: the [4096, 64] result at (n, e) sums, over d, the left operand at (n, d) times the right at (d, e). -/
theorem contractFeatures_apply {φ₁ φ₂ : FTy} (a : FVec Ideal S4096x64 φ₁) (b : FVec Ideal S64x64 φ₂) (n : Fin 4096) (e : Fin 64) :
    matmul dot_S4096x64_S64x64_S4096x64_1_0_0_1_n_n none a b (constant S4096x64 .f32 0x00000000#32) (ix2 n e)
      = ∑ d : Fin 64, a (ix2 n d) * b (ix2 d e) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 n e) ((contrEquiv1 dot_S4096x64_S64x64_S4096x64_1_0_0_1_n_n 64 rfl rfl).symm k) = ix2 n k :=
    funext fun ax => Fin.ext (by
      match ax with
      | ⟨0, _⟩ => exact features_lhs_0 _ _
      | ⟨1, _⟩ => exact (features_lhs_1 _ _).trans hk)
  have er : dot_S4096x64_S64x64_S4096x64_1_0_0_1_n_n.rhsIdx (ix2 n e) ((contrEquiv1 dot_S4096x64_S64x64_S4096x64_1_0_0_1_n_n 64 rfl rfl).symm k) = ix2 k e :=
    funext fun ax => Fin.ext (by
      match ax with
      | ⟨0, _⟩ => exact (features_rhs_0 _ _).trans hk
      | ⟨1, _⟩ => exact features_rhs_1 _ _)
  rw [el, er]

end Cert.KernelIdeal.Block

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Payload.lean ====
/-
  What the kernel's body computes from one head's three blocks is that head attended.

  The body's one value is cut here into its stages — the keys' column maxima, exponentials and weights, the queries' row
  maxima, exponentials and weights, the context table, the result — each a short term of the vector operations, and the
  body's payload is their composition by unfolding. Read at an index, each stage is the stage of `Cert.Attention`
  of the same name on the block read as a head: the pointwise operations are read coordinate by coordinate, a kept
  reduction broadcast back reads the reduced vector at the row's or column's coordinate, the two matrix products are
  sums of products into a zero accumulator.
-/
import proofs.«105340_j46703474377050_1_alg».proof.Proof.Gen.KernelIdeal.Skeleton
import proofs.«105340_j46703474377050_1_alg».proof.Proof.BlockOps
import proofs.«105340_j46703474377050_1_alg».proof.Proof.LibColumnLayout

noncomputable section

namespace Cert.KernelIdeal.Block

open Cert.KernelIdeal Cert.KernelIdeal.Gen Cert.Attention
open Idealize.ShloMosaic Idealize.ShloMosaic.ValueIdx Idealize.ShloMosaic.ColumnLayout

/-- One head's block as the body sees it once the leading unit axis is dropped. -/
abbrev Blk := FVec Ideal S4096x64 .f32

/-- The block read as a head. -/
def asHead (x : Blk) : Head := fun n d => x (ix2 n d)

/-! ## The stages, as the body spells them -/

def colMaxV (k : Blk) : FVec Ideal S64 .f32 :=
  maximumf (broadcast S64 (Scalar.ofBits .f32 0xFF800000#32))
    (multiReduction .maximumf [0] S64 k 0xFF800000#32 reduces_S4096x64_S64 (.inl rfl) rfl)
def keyExpV (k : Blk) : Blk :=
  exp (subf k (broadcastTo S4096x64 (shapeCast S1x64 (colMaxV k) shapeCasts_S64_S1x64) broadcasts_S1x64_S4096x64))
def keyWeightV (k : Blk) : Blk :=
  divf (keyExpV k) (broadcastTo S4096x64 (shapeCast S1x64
    (multiReduction .add [0] S64 (keyExpV k) 0x00000000#32 reduces_S4096x64_S64 (.inl rfl) rfl) shapeCasts_S64_S1x64) broadcasts_S1x64_S4096x64)

def rowMaxV (q : Blk) : FVec Ideal S4096 .f32 :=
  maximumf (broadcast S4096 (Scalar.ofBits .f32 0xFF800000#32))
    (multiReduction .maximumf [1] S4096 q 0xFF800000#32 reduces_S4096x64_S4096 (.inl rfl) rfl)
def qryExpV (q : Blk) : Blk :=
  exp (subf q (broadcastTo S4096x64 (shapeCast S4096x1 (rowMaxV q) shapeCasts_S4096_S4096x1) broadcasts_S4096x1_S4096x64))
def qryWeightV (q : Blk) : Blk :=
  divf (qryExpV q) (broadcastTo S4096x64 (shapeCast S4096x1
    (multiReduction .add [1] S4096 (qryExpV q) 0x00000000#32 reduces_S4096x64_S4096 (.inl rfl) rfl) shapeCasts_S4096_S4096x1) broadcasts_S4096x1_S4096x64)

def keyMassV (k : Blk) : FVec Ideal S64 .f32 :=
  addf (multiReduction .add [0] S64 (keyWeightV k) 0x00000000#32 reduces_S4096x64_S64 (.inl rfl) rfl)
    (broadcast S64 (Scalar.ofBits .f32 0x358637BD#32))
def contextV (k v : Blk) : FVec Ideal S64x64 .f32 :=
  divf (matmul dot_S4096x64_S4096x64_S64x64_0_0_1_1_n_n none (truncf .bf16 (keyWeightV k) bitsLt_bf16_f32)
      (truncf .bf16 v bitsLt_bf16_f32) (constant S64x64 .f32 0x00000000#32))
    (broadcastTo S64x64 (shapeCast S64x1 (keyMassV k) shapeCasts_S64_S64x1) broadcasts_S64x1_S64x64)
def attendV (q k v : Blk) : Blk :=
  matmul dot_S4096x64_S64x64_S4096x64_1_0_0_1_n_n none (truncf .bf16 (qryWeightV q) bitsLt_bf16_f32)
    (truncf .bf16 (contextV k v) bitsLt_bf16_f32) (constant S4096x64 .f32 0x00000000#32)

/-- The body's payload is the stages composed, on the three loaded blocks less their unit axis. -/
theorem payload_eq (x0 x1 x2 : Vec Ideal S1x4096x64 .f32) :
    k0_pay2 x0 x1 x2 = attendV (shapeCast S4096x64 x0 shapeCasts_S1x4096x64_S4096x64)
      (shapeCast S4096x64 x1 shapeCasts_S1x4096x64_S4096x64) (shapeCast S4096x64 x2 shapeCasts_S1x4096x64_S4096x64) := rfl

/-! ## Each stage at an index -/

theorem colMaxV_apply (k : Blk) (d : Fin 64) : colMaxV k (ix1 d) = keyMax (asHead k) d :=
  congrArg (max negInf) (colMax_apply k _ _ _ d)

theorem keyExpV_apply (k : Blk) (n : Fin 4096) (d : Fin 64) : keyExpV k (ix2 n d) = keyExp (asHead k) n d := by
  show Ideal.exp (k (ix2 n d) - broadcastTo S4096x64 (shapeCast S1x64 (colMaxV k) shapeCasts_S64_S1x64) broadcasts_S1x64_S4096x64 (ix2 n d)) = _
  rw [row_broadcast_apply (colMaxV k) shapeCasts_S64_S1x64 broadcasts_S1x64_S4096x64 n d, colMaxV_apply]
  rfl

theorem keyWeightV_apply (k : Blk) (n : Fin 4096) (d : Fin 64) : keyWeightV k (ix2 n d) = keyWeight (asHead k) n d := by
  show Ideal.div (keyExpV k (ix2 n d)) (broadcastTo S4096x64 (shapeCast S1x64
    (multiReduction .add [0] S64 (keyExpV k) 0x00000000#32 reduces_S4096x64_S64 (.inl rfl) rfl) shapeCasts_S64_S1x64) broadcasts_S1x64_S4096x64 (ix2 n d)) = _
  rw [row_broadcast_apply _ shapeCasts_S64_S1x64 broadcasts_S1x64_S4096x64 n d, keyExpV_apply]
  unfold keyWeight
  exact congrArg (Ideal.div _) ((colSum_apply (keyExpV k) _ _ _ d).trans
    (Finset.sum_congr rfl fun n' _ => keyExpV_apply k n' d))

theorem rowMaxV_apply (q : Blk) (n : Fin 4096) : rowMaxV q (ix1 n) = qryMax (asHead q) n :=
  congrArg (max negInf) (rowMax_apply q _ _ _ n)

theorem qryExpV_apply (q : Blk) (n : Fin 4096) (d : Fin 64) : qryExpV q (ix2 n d) = qryExp (asHead q) n d := by
  show Ideal.exp (q (ix2 n d) - broadcastTo S4096x64 (shapeCast S4096x1 (rowMaxV q) shapeCasts_S4096_S4096x1) broadcasts_S4096x1_S4096x64 (ix2 n d)) = _
  rw [column_broadcast_apply (rowMaxV q) shapeCasts_S4096_S4096x1 broadcasts_S4096x1_S4096x64 n d, rowMaxV_apply]
  rfl

theorem qryWeightV_apply (q : Blk) (n : Fin 4096) (d : Fin 64) : qryWeightV q (ix2 n d) = qryWeight (asHead q) n d := by
  show Ideal.div (qryExpV q (ix2 n d)) (broadcastTo S4096x64 (shapeCast S4096x1
    (multiReduction .add [1] S4096 (qryExpV q) 0x00000000#32 reduces_S4096x64_S4096 (.inl rfl) rfl) shapeCasts_S4096_S4096x1) broadcasts_S4096x1_S4096x64 (ix2 n d)) = _
  rw [column_broadcast_apply _ shapeCasts_S4096_S4096x1 broadcasts_S4096x1_S4096x64 n d, qryExpV_apply]
  unfold qryWeight
  exact congrArg (Ideal.div _) ((rowSum_apply (qryExpV q) _ _ _ n).trans
    (Finset.sum_congr rfl fun d' _ => qryExpV_apply q n d'))

theorem keyMassV_apply (k : Blk) (d : Fin 64) : keyMassV k (ix1 d) = keyMass (asHead k) d := by
  show multiReduction .add [0] S64 (keyWeightV k) 0x00000000#32 reduces_S4096x64_S64 (.inl rfl) rfl (ix1 d) + eps = _
  unfold keyMass
  exact congrArg (· + eps) ((colSum_apply (keyWeightV k) _ _ _ d).trans
    (Finset.sum_congr rfl fun n _ => keyWeightV_apply k n d))

theorem contextV_apply (k v : Blk) (d e : Fin 64) : contextV k v (ix2 d e) = context (asHead k) (asHead v) d e := by
  show Ideal.div (matmul dot_S4096x64_S4096x64_S64x64_0_0_1_1_n_n none (truncf .bf16 (keyWeightV k) bitsLt_bf16_f32)
      (truncf .bf16 v bitsLt_bf16_f32) (constant S64x64 .f32 0x00000000#32) (ix2 d e))
    (broadcastTo S64x64 (shapeCast S64x1 (keyMassV k) shapeCasts_S64_S64x1) broadcasts_S64x1_S64x64 (ix2 d e)) = _
  rw [column_broadcast_apply (keyMassV k) shapeCasts_S64_S64x1 broadcasts_S64x1_S64x64 d e, keyMassV_apply, contractPositions_apply]
  unfold context rawContext
  refine congrArg (Ideal.div · _) (Finset.sum_congr rfl fun n _ => ?_)
  show keyWeightV k (ix2 n d) * v (ix2 n e) = _
  rw [keyWeightV_apply]
  rfl

theorem attendV_apply (q k v : Blk) (n : Fin 4096) (e : Fin 64) :
    attendV q k v (ix2 n e) = attend (asHead q) (asHead k) (asHead v) n e := by
  unfold attendV
  rw [contractFeatures_apply]
  unfold attend
  refine Finset.sum_congr rfl fun d _ => ?_
  show qryWeightV q (ix2 n d) * contextV k v (ix2 d e) = _
  rw [qryWeightV_apply, contextV_apply]

end Cert.KernelIdeal.Block

end
-- ==== Proof.KernelArray.lean ====
/-
  The kernel's result array: every head attended, on the caller's four-axis arrays.

  Grid point t stages block t of each of the three operand arrays — head t, whole — runs the body on them and writes
  the result back as block t of the output array. So what point t writes back is block t of ONE function of the three
  arrays as the region finds them: every head attended (`attend3`). The 128 blocks tile the output, so that function is
  the whole array after the run. Around the region the program only relabels axes: the three arguments are viewed with
  their batch and head axes merged (head g = 16 b + h, the row-major order), and the result with the merged axis split
  again, so the result on the caller's axes is `attend4` of the arguments.
-/
import proofs.«105340_j46703474377050_1_alg».proof.Proof.Gen.KernelIdeal.Frame
import proofs.«105340_j46703474377050_1_alg».proof.Proof.Payload
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Cert.KernelIdeal.Block Cert.Attention
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## One block -/

theorem hz : (![0, 0, 0] : Fin 3 → Nat) = fun _ => 0 := funext fun a => by fin_cases a <;> rfl

/-- A staged [1, 4096, 64] block read as a head. -/
def blkHead (x : Vec Ideal S1x4096x64 .f32) : Head := fun n d => x (ix3 (0 : Fin 1) n d)

/-- Dropping the block's unit axis does not change the head it holds. -/
theorem asHead_dropUnit (x : Vec Ideal S1x4096x64 .f32) :
    asHead (shapeCast S4096x64 x shapeCasts_S1x4096x64_S4096x64) = blkHead x :=
  funext fun n => funext fun d => shapeCast_1ab_ab_apply x shapeCasts_S1x4096x64_S4096x64 n d

/-- What the body leaves in the output's staging buffer, from the three staged blocks: their head attended. -/
theorem block_value (x0 x1 x2 : Vec Ideal S1x4096x64 .f32) (u : Fin 1) (n : Fin 4096) (e : Fin 64) :
    out0_3 x0 x1 x2 (ix3 u n e) = attend (blkHead x0) (blkHead x1) (blkHead x2) n e := by
  unfold out0_3
  rw [View.canon_unit_zero hz]
  simp only [View.ld_unit_zero (S := S1x4096x64) hz]
  unfold k0_pay1
  rw [payload_eq]
  refine (shapeCast_ab_1ab_apply _ shapeCasts_S4096x64_S1x4096x64 u n e).trans ?_
  rw [attendV_apply, asHead_dropUnit, asHead_dropUnit, asHead_dropUnit]

/-- The same at any index of the block. -/
theorem block_value_at (x0 x1 x2 : Vec Ideal S1x4096x64 .f32) (y : S1x4096x64.Idx) :
    out0_3 x0 x1 x2 y = attend (blkHead x0) (blkHead x1) (blkHead x2) (y 1) (y 2) := by
  obtain ⟨u, n, e, rfl⟩ : ∃ (u : Fin 1) (n : Fin 4096) (e : Fin 64), y = ix3 u n e := ⟨y 0, y 1, y 2, eq_ix3 y⟩
  exact block_value x0 x1 x2 u n e

/-- `attend3` at an index named by its coordinates. -/
theorem attend3_at (A0 A1 A2 : A3.Idx → EReal) (g : Fin 128) (n : Fin 4096) (e : Fin 64) (i : A3.Idx)
    (h0 : (i 0).val = g.val) (h1 : (i 1).val = n.val) (h2 : (i 2).val = e.val) :
    attend3 A0 A1 A2 i = attend (head3 A0 g) (head3 A1 g) (head3 A2 g) n e := by
  obtain rfl : i = ix3 g n e := funext fun a => Fin.ext (by
    match a with | ⟨0, _⟩ => exact h0 | ⟨1, _⟩ => exact h1 | ⟨2, _⟩ => exact h2)
  rfl

/-! ## The index maps, decided over the 128 points: block t of every window is head t, whole -/

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The point as a head number. -/
abbrev headOf (t : Fin cfg0.N) : Fin 128 := t.cast N_0

/-- The block of the first operand staged at point t is head t of its array. -/
theorem iblk0_head (c : Dev nD) (t : Fin cfg0.N) : blkHead (iblk m c 0 t) = head3 (V m c main_v0) (headOf t) := by
  obtain ⟨⟨e0, e1, e2⟩, -⟩ := idx_facts t
  funext n d
  unfold blkHead head3 iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 64 + 1 * d.val = d.val; omega

theorem iblk1_head (c : Dev nD) (t : Fin cfg0.N) : blkHead (iblk m c 1 t) = head3 (V m c main_v1) (headOf t) := by
  obtain ⟨-, ⟨e0, e1, e2⟩, -⟩ := idx_facts t
  funext n d
  unfold blkHead head3 iblk
  rw [View.read_apply]
  show V m c main_v1 _ = V m c main_v1 _
  refine congrArg (V m c main_v1) (funext fun a => Fin.ext ?_)
  match a with
  | ⟨0, _⟩ => show win0_1.index t (0 : Fin 3) * 1 + 1 * 0 = t.val; omega
  | ⟨1, _⟩ => show win0_1.index t (1 : Fin 3) * 4096 + 1 * n.val = n.val; omega
  | ⟨2, _⟩ => show win0_1.index t (2 : Fin 3) * 64 + 1 * d.val = d.val; omega

theorem iblk2_head (c : Dev nD) (t : Fin cfg0.N) : blkHead (iblk m c 2 t) = head3 (V m c main_v2) (headOf t) := by
  obtain ⟨-, -, ⟨e0, e1, e2⟩, -⟩ := idx_facts t
  funext n d
  unfold blkHead head3 iblk
  rw [View.read_apply]
  show V m c main_v2 _ = V m c main_v2 _
  refine congrArg (V m c main_v2) (funext fun a => Fin.ext ?_)
  match a with
  | ⟨0, _⟩ => show win0_2.index t (0 : Fin 3) * 1 + 1 * 0 = t.val; omega
  | ⟨1, _⟩ => show win0_2.index t (1 : Fin 3) * 4096 + 1 * n.val = n.val; omega
  | ⟨2, _⟩ => show win0_2.index t (2 : Fin 3) * 64 + 1 * d.val = d.val; omega

/-! ## From the blocks to the array -/

/-- What the output array holds after the run, as a function of the operand arrays as the region finds them. -/
abbrev regionResult (c : Dev nD) : A3.Idx → EReal := attend3 (V m c main_v0) (V m c main_v1) (V m c main_v2)

/-- What point t writes back is block t of `regionResult`. -/
theorem flushed_eq (c : Dev nD) (t : Fin cfg0.N) :
    (dats m 0 c).flushed 3 t = ((cfg0.win 3).blk t).view.read (Elt Ideal) (regionResult m c) := by
  show (cfg0.win 3).cut (grid0.coords t) ((dats m 0 c).after 3 t) = _
  rw [after0_3]
  obtain ⟨-, -, -, ⟨e0, e1, e2⟩⟩ := idx_facts t
  funext j
  show out0_3 (iblk m c 0 t) (iblk m c 1 t) (iblk m c 2 t) j
    = attend3 (V m c main_v0) (V m c main_v1) (V m c main_v2) (((cfg0.win 3).blk t).view.emb j)
  refine (block_value_at (iblk m c 0 t) (iblk m c 1 t) (iblk m c 2 t) j).trans ?_
  rw [iblk0_head, iblk1_head, iblk2_head]
  refine (attend3_at (V m c main_v0) (V m c main_v1) (V m c main_v2) (headOf t) _ _ (((cfg0.win 3).blk t).view.emb j) ?_ ?_ ?_).symm
  · show win0_3.index t (0 : Fin 3) * 1 + 1 * (j 0).val = t.val
    have hj : (j 0).val < 1 := (j 0).isLt
    omega
  · show win0_3.index t (1 : Fin 3) * 4096 + 1 * (j 1).val = (j 1).val
    omega
  · show win0_3.index t (2 : Fin 3) * 64 + 1 * (j 2).val = (j 2).val
    omega

/-- An index of the output array is in point t's block iff each coordinate is in the block's range on its axis. -/
theorem mem_blk (t : Fin cfg0.N) (i : S128x4096x64.Idx) :
    i ∈ ((cfg0.win 3).blk t).view.set ↔ ∀ a : Fin 3, win0_3.index t a * S1x4096x64.size a ≤ (i a).val
      ∧ (i a).val < win0_3.index t a * S1x4096x64.size a + S1x4096x64.size a := by
  show i ∈ ((View.whole main_v3).slice (win0_3.rect t)).set ↔ _
  rw [View.set_slice_whole, Rect.mem_set_unit]
  exact Iff.rfl

/-- Every index of the output array is in the block of the point numbered by its head coordinate. -/
theorem cover (i : S128x4096x64.Idx) :
    ∃ t : Fin cfg0.N, (cfg0.win 3).flush t = true ∧ i ∈ ((cfg0.win 3).blk t).view.set := by
  have hi0 : (i 0).val < 128 := (i 0).isLt
  have hi1 : (i 1).val < 4096 := (i 1).isLt
  have hi2 : (i 2).val < 64 := (i 2).isLt
  obtain ⟨t, ht⟩ : ∃ t : Fin cfg0.N, t.val = (i 0).val := ⟨⟨(i 0).val, by rw [show cfg0.N = 128 from N_0]; exact hi0⟩, rfl⟩
  obtain ⟨-, -, -, ⟨e0, e1, e2⟩⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 4096 ≤ (i 1).val ∧ (i 1).val < win0_3.index t (1 : Fin 3) * 4096 + 4096
    omega
  | ⟨2, _⟩ =>
    show win0_3.index t (2 : Fin 3) * 64 ≤ (i 2).val ∧ (i 2).val < win0_3.index t (2 : Fin 3) * 64 + 64
    omega

/-- The output array after the run. -/
theorem final (c : Dev nD) : (dats m 0 c).arrAt 3 cfg0.N = regionResult m c :=
  (dats m 0 c).arrAt_eq_of_cover 3 (regionResult m c) (fun t _ => flushed_eq m c t) cover

/-! ## The relabelling of axes around the region -/

/-- The operand arrays as the region finds them: the arguments with batch and head merged. -/
theorem V_main_v0 (c : Dev nD) :
    V m c main_v0 = shapeCast S128x4096x64 (m ((c : Thread nD τ).loc main_arg0)) shapeCasts_S8x16x4096x64_S128x4096x64 := by
  show StableHlo.after hostOps0 (fun b => m (c, b)) (Proc.devRef .tc main_v0) = _
  after_results
  rfl
theorem V_main_v1 (c : Dev nD) :
    V m c main_v1 = shapeCast S128x4096x64 (m ((c : Thread nD τ).loc main_arg1)) shapeCasts_S8x16x4096x64_S128x4096x64 := by
  show StableHlo.after hostOps0 (fun b => m (c, b)) (Proc.devRef .tc main_v1) = _
  after_results
  rfl
theorem V_main_v2 (c : Dev nD) :
    V m c main_v2 = shapeCast S128x4096x64 (m ((c : Thread nD τ).loc main_arg2)) shapeCasts_S8x16x4096x64_S128x4096x64 := by
  show StableHlo.after hostOps0 (fun b => m (c, b)) (Proc.devRef .tc main_v2) = _
  after_results
  rfl

/-- Head 16 b + h of an array whose batch and head axes were merged is head (b, h) of the array. -/
theorem head3_merged (x : A4.Idx → EReal) (hc : A4.ShapeCasts A3) (b : Fin 8) (h : Fin 16) (g : Fin 128)
    (hg : g.val = b.val * 16 + h.val) : head3 (shapeCast A3 x hc) g = head4 x b h :=
  funext fun n => funext fun d => shapeCast_apply x hc (ix3 g n d) (ix4 b h n d) (by
    rw [Shape.rowMajor_val_four, Shape.rowMajor_val_three]
    show ((b.val * 16 + h.val) * 4096 + n.val) * 64 + d.val = (g.val * 4096 + n.val) * 64 + d.val
    rw [hg])

/-- Attending the merged arrays and splitting the merged axis again is attending the arrays. -/
theorem split_attend3_merged (q k v : A4.Idx → EReal) (hc : A4.ShapeCasts A3) (hc' : A3.ShapeCasts A4) :
    shapeCast A4 (attend3 (shapeCast A3 q hc) (shapeCast A3 k hc) (shapeCast A3 v hc)) hc' = attend4 q k v := by
  funext i
  obtain ⟨b, h, n, e, rfl⟩ : ∃ (b : Fin 8) (h : Fin 16) (n : Fin 4096) (e : Fin 64), i = ix4 b h n e :=
    ⟨i 0, i 1, i 2, i 3, eq_ix4 i⟩
  have hb : b.val < 8 := b.isLt
  have hh : h.val < 16 := h.isLt
  refine (shapeCast_apply _ hc' (ix4 b h n e) (ix3 (⟨b.val * 16 + h.val, by omega⟩ : Fin 128) n e) (by
    rw [Shape.rowMajor_val_four, Shape.rowMajor_val_three]
    rfl)).trans ?_
  show attend (head3 (shapeCast A3 q hc) _) (head3 (shapeCast A3 k hc) _) (head3 (shapeCast A3 v hc) _) n e
    = attend (head4 q b h) (head4 k b h) (head4 v b h) n e
  rw [head3_merged q hc b h _ rfl, head3_merged k hc b h _ rfl, head3_merged v hc b h _ rfl]

/-! ## The run -/

/-- The line after the region: the result buffer holds the output array with its merged axis split again. -/
theorem tail_main_v4 (c : Dev nD) :
    Pipeline.afterTail₀ cfgs (dats m) 0 (V0 m) [hostOps1] c main_v4
      = shapeCast S8x16x4096x64 ((dats m 0 c).arrAt 3 cfg0.N) shapeCasts_S128x4096x64_S8x16x4096x64 := by
  unfold Pipeline.afterTail₀
  show StableHlo.after hostOps1 _ (Proc.devRef .tc main_v4) = _
  after_results
  have hw := Pipeline.withArrays_arr spec0 launch0.win.arr_inj c (V0 m c) (fun w => (dats m 0 c).arrAt w cfg0.N) 3
  exact congrArg (fun A => shapeCast S8x16x4096x64 A shapeCasts_S128x4096x64_S8x16x4096x64) hw

/-- So the result buffer ends at every head of the arguments attended. -/
theorem result_eq (c : Dev nD) :
    Pipeline.afterTail₀ cfgs (dats m) 0 (V0 m) [hostOps1] c main_v4
      = attend4 (m ((c : Thread nD τ).loc main_arg0)) (m ((c : Thread nD τ).loc main_arg1)) (m ((c : Thread nD τ).loc main_arg2)) := by
  rw [tail_main_v4, final]
  show shapeCast S8x16x4096x64 (attend3 (V m c main_v0) (V m c main_v1) (V m c main_v2)) _ = _
  rw [V_main_v0, V_main_v1, V_main_v2]
  exact split_attend3_merged _ _ _ _ _

/-- The kernel's run, read: every weakly fair execution ends with the result buffer at `attend4` of the arguments, and
    the arguments as launched. -/
theorem run : θ_run defs (onTc (τ := τ) (main (F := Ideal))) ⟨m, fun _ => 0, ρ⟩ fun r => ∀ c : Dev nD,
      r.2.mem ((c.tc : Thread nD τ).loc main_v4)
        = attend4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.lean ====
/-
  Linear attention, a Pallas kernel against its jnp reference, equal on the extended reals.

  Both programs compute, for each of the 8 x 16 heads, with Q, K, V the head's 4096 x 64 tables,

      out[n, e] = sum_d  softmax_d(Q)[n, d] * ( sum_n' softmax_n(K)[n', d] * V[n', e] ) / ( sum_n' softmax_n(K)[n', d] + eps )

  — the keys normalised over the positions, the queries over the features, the 64 x 64 context divided row by row by the
  keys' column mass plus eps, eps the same f32 word in both. The reference does it on the four-axis arrays with batched
  reductions and contractions. The kernel merges batch and head into one axis of 128, runs one grid point per head on that
  head's three whole blocks, and splits the axis again; inside, its two matrix products take bf16 operands, which on
  the extended reals are the f32 values. Nothing else differs but the order in which finite sums and maxima are taken, so
  the two results are one function (`Cert.Attention.attend4`) of the arguments and no property of the inputs is used.

  `Proof/Attention.lean` states that function; `Proof/RefStages.lean` reads the reference's stages as it;
  `Proof/BlockOps.lean`, `Proof/Payload.lean` read the kernel's body on one head's blocks as it;
  `Proof/KernelArray.lean` goes from the blocks to the array and through the two relabellings of axes to the kernel's run.
-/
import proofs.«105340_j46703474377050_1_alg».proof.Defs
import proofs.«105340_j46703474377050_1_alg».proof.Proof.Gen.Kernel
import proofs.«105340_j46703474377050_1_alg».proof.Proof.Gen.Kernel.Skeleton
import proofs.«105340_j46703474377050_1_alg».proof.Proof.Gen.Kernel.Launch
import proofs.«105340_j46703474377050_1_alg».proof.Proof.Gen.Kernel.Points
import proofs.«105340_j46703474377050_1_alg».proof.Proof.Gen.Kernel.Frame
import proofs.«105340_j46703474377050_1_alg».proof.Proof.Gen.KernelIdeal
import proofs.«105340_j46703474377050_1_alg».proof.Proof.Gen.KernelIdeal.Skeleton
import proofs.«105340_j46703474377050_1_alg».proof.Proof.Gen.KernelIdeal.Launch
import proofs.«105340_j46703474377050_1_alg».proof.Proof.Gen.KernelIdeal.Points
import proofs.«105340_j46703474377050_1_alg».proof.Proof.Gen.KernelIdeal.Frame
import proofs.«105340_j46703474377050_1_alg».proof.Proof.Gen.ReferenceIdeal
import proofs.«105340_j46703474377050_1_alg».proof.Proof.Gen.ReferenceIdeal.Run
import proofs.«105340_j46703474377050_1_alg».proof.Proof.Gen.ReferenceIdeal.Read
import proofs.«105340_j46703474377050_1_alg».proof.Proof.Gen.Pre_finite_inputs
import proofs.«105340_j46703474377050_1_alg».proof.Proof.RefStages
import proofs.«105340_j46703474377050_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel on the extended reals is the kernel's own text: no operation was rewritten. -/
theorem preserves : Cert.preserves_Kernel_KernelIdeal := trivial

/-- From memories agreeing on the three arguments the kernel's result array and the reference's end at every head of the
    arguments attended: the kernel's by its run, the reference's by its stages read one by one. -/
theorem algebraic : Cert.algebraic_KernelIdeal_ReferenceIdeal := by
  intro m ρ m' ρ' _ hagree
  refine ⟨fun c => Cert.Attention.attend4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
